-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x8192x1024 .f32) (main_arg1 : FVec F S1024x1024 .f32) (main_arg2 : FVec F S4x8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x8192x1024 .f32 := Host.absf main_arg2
  let main_cst_2 : FVec F S_ .f32 := constant S_ .f32 0x7F800000#32
  let main_v10 : FVec F S4x8192x1024 .f32 := broadcastInDim S4x8192x1024 ![] bcast_S_S4x8192x1024 main_cst_2
  let main_v11 : IVec S4x8192x1024 1 := cmpf .olt main_v9 main_v10
  let main_c_3 : IVec S_ 1 := constantI S_ 1 1#1
  let main_v12 : IVec S_ 1 := (fun x v => Host.reduce IntOp.andi x v reducesTo_S4x8192x1024_S_d0_1_2 h_S_) main_v11 main_c_3
  let main_v13 : IVec S_ 1 := andi main_v8 main_v12
  main_v13
-- ==== Kernel.lean ====
abbrev S4x8192x1024 : Shape := ⟨3, ![4, 8192, 1024]⟩
abbrev S1024x1024 : Shape := ⟨2, ![1024, 1024]⟩
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S4x8192x1024, .f32⟩
  | .hbm, ⟨3, _⟩ => ⟨S32768x1024, .f32⟩
  | .hbm, ⟨4, _⟩ => ⟨S32768x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S4x8192x1024, .f32⟩
  | .hbm, ⟨15, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x8192x1024_S32768x1024 : S4x8192x1024.ShapeCasts S32768x1024
  bitsLt_bf16_f32 : FTy.bits .bf16 < FTy.bits .f32
  transposes_S1024x1024_S1024x1024_1_0 : S1024x1024.Transposes [1, 0] S1024x1024
  reducesTo_S1024x1024_S1024_d1 : S1024x1024.ReducesTo [1] S1024
  h_S_ : 0 < S_.numel
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  shapeCasts_S32768x1024_S4x8192x1024 : S32768x1024.ShapeCasts S4x8192x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S4x8192x1024, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S4x8192x1024, .f32⟩
  | .hbm, ⟨11, _⟩ => ⟨S1x1x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  reducesTo_S1024x1024_S1024_d1 : S1024x1024.ReducesTo [1] S1024
  bcast_S1024_S1x1x1024_2 : S1024.BroadcastsInDim S1x1x1024 (![2] : Fin 1 → Fin S1x1x1024.rank)
  bcast_S4x8192x1_S4x8192x1024_0_1_2 : S4x8192x1.BroadcastsInDim S4x8192x1024 (![0, 1, 2] : Fin 3 → Fin S4x8192x1024.rank)
  bcast_S1x1x1024_S4x8192x1024_0_1_2 : S1x1x1024.BroadcastsInDim S4x8192x1024 (![0, 1, 2] : Fin 3 → Fin S4x8192x1024.rank)
  bcast_S_S4x8192x1024 : S_.BroadcastsInDim S4x8192x1024 (![] : Fin 0 → Fin S4x8192x1024.rank)
  bcast_S_S4x8192 : S_.BroadcastsInDim S4x8192 (![] : Fin 0 → Fin S4x8192.rank)
  dot_S4x8192x1024_S1024x1024_S4x8192x1024_2_1_01_0_n_n_wf : DotDims.WF S4x8192x1024 S1024x1024 S4x8192x1024 [2] [1] [0, 1] [0] [] []
  dot_S4x8192x1024_S1024x1024_S4x8192x1024_2_0_01_1_n_n_wf : DotDims.WF S4x8192x1024 S1024x1024 S4x8192x1024 [2] [0] [0, 1] [1] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8192x1024_S1024x1024_S4x8192x1024_2_0_01_1_n_n : DotDims S4x8192x1024 S1024x1024 S4x8192x1024 where
  lhsContracting := [2]
  rhsContracting := [0]
  lhsNonContracting := [0, 1]
  rhsNonContracting := [1]
  lhsBatch := []
  rhsBatch := []
  wf := dot_S4x8192x1024_S1024x1024_S4x8192x1024_2_0_01_1_n_n_wf

class Facts : Prop extends Facts₀ where

variable [Facts]
-- ==== Proof.RowSpec.lean ====
/-
  Soft vector quantisation with Gumbel noise, ONE ROW AT A TIME, on the extended reals.

  A row `x` of 1024 reals is compared with each of the 1024 rows `cb k` of a codebook through the expansion
  |x - c|² = |x|² + |c|² - 2 x·c, clamped below at zero; the logit of code `k` is minus the square root of that.
  Adding the Gumbel noise -log (-log u) of a uniform sample and taking the softmax over the codes gives weights, and
  the quantised row is the weighted sum of the codebook's rows.  Everything below is a function of one row of the
  embeddings, one row of the noise and the whole codebook: no row of the batch meets another.

  Both programs compute these very expressions, operation for operation; they differ only in how the sums are laid
  out in memory and in three spellings that agree on every extended real: `0 - a` for `-a`, `a * 1` for `a / 1`,
  and `max (-∞) m` written on both sides.  The three small laws are at the end.
-/
import Idealize.ShloMosaic.PureOps.Ideal
import Idealize.ShloMosaic.PureOps.Ideal.Laws
import Idealize.ShloMosaic.Lib.ValueIdx

noncomputable section

open scoped BigOperators

namespace Cert.RowSpec

open Idealize.ShloMosaic Idealize.ShloMosaic.ValueIdx

/-- The factor 2 of the expansion, as the word both programs spell. -/
abbrev two : EReal := Ideal.ofBits .f32 0x40000000#32
/-- The value a running maximum starts from: the word of -∞. -/
abbrev negInf : EReal := Ideal.ofBits .f32 0xFF800000#32

/-- |x|²: the sum of the squares of a row. -/
def sqLen (x : Fin 1024 → EReal) : EReal := ∑ d, x d * x d

/-- x·y: the inner product of two rows. -/
def dotRow (x y : Fin 1024 → EReal) : EReal := ∑ d, x d * y d

/-- Minus the distance, from the three terms of the expansion: -(√ max (|x|² + |c|² - 2 x·c) 0). -/
def negDist (xx cc xc : EReal) : EReal := -(Ideal.sqrt (max (xx + cc - two * xc) 0))

/-- The logit of code `k` for the row `x`: minus its distance to the codebook's row `k`. -/
def logit (x : Fin 1024 → EReal) (cb : Fin 1024 → Fin 1024 → EReal) (k : Fin 1024) : EReal :=
  negDist (sqLen x) (sqLen (cb k)) (dotRow x (cb k))

/-- Gumbel noise from a uniform sample: -log (-log u). -/
def gumbel (u : EReal) : EReal := -(Ideal.log (-(Ideal.log u)))

/-- The noisy logits of a row. -/
def noisy (x u : Fin 1024 → EReal) (cb : Fin 1024 → Fin 1024 → EReal) (k : Fin 1024) : EReal :=
  logit x cb k + gumbel (u k)

/-- The maximum of a row of scores, started from -∞ (and compared with -∞ once more, as both programs do). -/
def rowMax (s : Fin 1024 → EReal) : EReal := max negInf ((Finset.univ : Finset (Fin 1024)).fold max negInf s)

/-- The softmax weight of code `k` given the scores `s` and the shift `mx`: e^(s k - mx) / Σ e^(s k' - mx). -/
def softW (s : Fin 1024 → EReal) (mx : EReal) (k : Fin 1024) : EReal :=
  Ideal.div (Ideal.exp (s k - mx)) (∑ k', Ideal.exp (s k' - mx))

/-- The weighted sum of the codebook's rows, at coordinate `d`. -/
def mix (w : Fin 1024 → EReal) (cb : Fin 1024 → Fin 1024 → EReal) (d : Fin 1024) : EReal := ∑ k, w k * cb k d

/-- The quantised row at coordinate `d`. -/
def quant (x u : Fin 1024 → EReal) (cb : Fin 1024 → Fin 1024 → EReal) (d : Fin 1024) : EReal :=
  mix (softW (noisy x u cb) (rowMax (noisy x u cb))) cb d

/-! ## The two result arrays as functions of the three argument arrays -/

/-- Row (b, s) of a [4, 8192, 1024] array. -/
abbrev rowOf (a : (⟨3, ![4, 8192, 1024]⟩ : Shape).Idx → EReal) (b : Fin 4) (s : Fin 8192) : Fin 1024 → EReal :=
  fun d => a (ix3 b s d)

/-- A [1024, 1024] array as a family of rows. -/
abbrev rowsOf (cb : (⟨2, ![1024, 1024]⟩ : Shape).Idx → EReal) : Fin 1024 → Fin 1024 → EReal :=
  fun k d => cb (ix2 k d)

/-- The logits array: entry (b, s, k) is the logit of code `k` for row (b, s) of the embeddings. -/
def logitsOf (e : (⟨3, ![4, 8192, 1024]⟩ : Shape).Idx → EReal) (cb : (⟨2, ![1024, 1024]⟩ : Shape).Idx → EReal) :
    (⟨3, ![4, 8192, 1024]⟩ : Shape).Idx → EReal :=
  fun i => logit (rowOf e (i 0) (i 1)) (rowsOf cb) (i 2)

/-- The quantised array: entry (b, s, d) is coordinate `d` of the quantised row (b, s). -/
def quantOf (e : (⟨3, ![4, 8192, 1024]⟩ : Shape).Idx → EReal) (cb : (⟨2, ![1024, 1024]⟩ : Shape).Idx → EReal)
    (u : (⟨3, ![4, 8192, 1024]⟩ : Shape).Idx → EReal) : (⟨3, ![4, 8192, 1024]⟩ : Shape).Idx → EReal :=
  fun i => quant (rowOf e (i 0) (i 1)) (rowOf u (i 0) (i 1)) (rowsOf cb) (i 2)

/-! ## Three spellings that agree on every extended real -/

/-- The word of 1.0 denotes 1. -/
theorem ofBits_one : Ideal.ofBits .f32 0x3F800000#32 = 1 := by
  simp [Ideal.ofBits, Ideal.ieee, -EReal.coe_mul]; norm_num

/-- Subtracting from zero is negating, at the infinities too. -/
theorem zero_sub_eq (a : EReal) : 0 - a = -a := by
  rw [sub_eq_add_neg, zero_add]

/-- Dividing by one changes nothing, at the infinities too. -/
theorem div_one_eq (a : EReal) : Ideal.div a 1 = a := by
  have h := Ideal.div_coe (one_ne_zero : (1 : ℝ) ≠ 0) a
  rw [EReal.coe_one] at h
  rw [h]; simp

end Cert.RowSpec

end
-- ==== Proof.RefRows.lean ====
/-
  The reference program read one row at a time.

  Its stages, read at an index (b, s, k) of the [4, 8192, 1024] arrays, only ever look at row (b, s) of the embeddings,
  row (b, s) of the noise and the codebook: the squared lengths and the inner products are sums over the last axis,
  the running maximum and the normalising sum of the softmax are folds over the last axis of the noisy logits, and the
  final product with the codebook is a sum over the codes.  Each stage below is identified with the row-level
  function of the specification that it computes.
-/
import proofs.«122654_j77988016161041_1_alg».proof.Proof.Gen.ReferenceIdeal.Read
import proofs.«122654_j77988016161041_1_alg».proof.Proof.RowSpec
import Idealize.ShloMosaic.PureOps.Reduce

noncomputable section

open scoped BigOperators

namespace Cert.ReferenceIdeal.RefRows

open Cert.ReferenceIdeal Cert.ReferenceIdeal.Gen Cert.ReferenceIdeal.Read
open Idealize.ShloMosaic Idealize.ShloMosaic.ValueIdx Cert.RowSpec

variable (x0 x2 : (⟨S4x8192x1024, .f32⟩ : BufTy).Contents (Elt Ideal)) (x1 : (⟨S1024x1024, .f32⟩ : BufTy).Contents (Elt Ideal))

/-! ## Which element each composed index map names -/

/-- The sum of squares of the embeddings at (b, s, ·) runs over row (b, s). -/
theorem idx_sq_e (b : Fin 4) (s : Fin 8192) (k d : Fin 1024) :
    idx_main_v1 (idx_main_v2 (idx_main_v7 (ix3 b s k))) d = ix3 b s d :=
  funext fun a => Fin.ext (by match a with | ⟨0, _⟩ => rfl | ⟨1, _⟩ => rfl | ⟨2, _⟩ => rfl)

/-- The sum of squares of the codebook at (·, ·, k) runs over its row k. -/
theorem idx_sq_c (b : Fin 4) (s : Fin 8192) (k d : Fin 1024) :
    idx_main_v4 (idx_main_v6 (idx_main_v8 (ix3 b s k))) d = ix2 k d :=
  funext fun a => Fin.ext (by match a with | ⟨0, _⟩ => rfl | ⟨1, _⟩ => rfl)

/-- The first product contracts row (b, s) of the embeddings … -/
theorem idx_dot_l (b : Fin 4) (s : Fin 8192) (k d : Fin 1024) : lidx_main_v5 (ix3 b s k) d = ix3 b s d :=
  funext fun a => Fin.ext (by match a with | ⟨0, _⟩ => rfl | ⟨1, _⟩ => rfl | ⟨2, _⟩ => rfl)

/-- … with row k of the codebook. -/
theorem idx_dot_r (b : Fin 4) (s : Fin 8192) (k d : Fin 1024) : ridx_main_v5 (ix3 b s k) d = ix2 k d :=
  funext fun a => Fin.ext (by match a with | ⟨0, _⟩ => rfl | ⟨1, _⟩ => rfl)

/-- A per-row quantity kept with a unit last axis and spread back over the codes is read at (b, s). -/
theorem idx_row_max (b : Fin 4) (s : Fin 8192) (k : Fin 1024) : idx_main_v27 (idx_main_v28 (ix3 b s k)) = ix2 b s :=
  funext fun a => Fin.ext (by match a with | ⟨0, _⟩ => rfl | ⟨1, _⟩ => rfl)
theorem idx_row_sum (b : Fin 4) (s : Fin 8192) (k : Fin 1024) : idx_main_v32 (idx_main_v33 (ix3 b s k)) = ix2 b s :=
  funext fun a => Fin.ext (by match a with | ⟨0, _⟩ => rfl | ⟨1, _⟩ => rfl)

/-- The normalising sum at (b, s) runs over row (b, s). -/
theorem idx_sum_exp (b : Fin 4) (s : Fin 8192) (k : Fin 1024) : idx_main_v31 (ix2 b s) k = ix3 b s k :=
  funext fun a => Fin.ext (by match a with | ⟨0, _⟩ => rfl | ⟨1, _⟩ => rfl | ⟨2, _⟩ => rfl)

/-- The last product contracts the weights of row (b, s) … -/
theorem idx_mix_l (b : Fin 4) (s : Fin 8192) (d k : Fin 1024) : lidx_main_v35 (ix3 b s d) k = ix3 b s k :=
  funext fun a => Fin.ext (by match a with | ⟨0, _⟩ => rfl | ⟨1, _⟩ => rfl | ⟨2, _⟩ => rfl)

/-- … with column d of the codebook. -/
theorem idx_mix_r (b : Fin 4) (s : Fin 8192) (d k : Fin 1024) : ridx_main_v35 (ix3 b s d) k = ix2 k d :=
  funext fun a => Fin.ext (by match a with | ⟨0, _⟩ => rfl | ⟨1, _⟩ => rfl)

/-! ## The stages -/

/-- The logits: minus the clamped distance of row (b, s) to row k of the codebook. -/
theorem logits_stage (b : Fin 4) (s : Fin 8192) (k : Fin 1024) :
    val_main_v16 (F := Ideal) x0 x1 (ix3 b s k) = logit (rowOf x0 b s) (rowsOf x1) k := by
  simp only [val_main_v16_apply, val_main_v15_apply, val_main_v14_apply, val_main_v13_apply, val_main_cst_2_apply,
    val_main_v12_apply, val_main_v11_apply, val_main_v10_apply, val_main_cst_1_apply, val_main_v9_apply,
    val_main_v8_apply, val_main_v7_apply, val_main_v6_apply, val_main_v5_apply, val_main_v4_apply, val_main_v3_apply,
    val_main_cst_0_apply, val_main_v2_apply, val_main_v1_apply, val_main_v0_apply, val_main_cst_apply,
    idx_sq_e, idx_sq_c, idx_dot_l, idx_dot_r,
    Ideal.hostNegf_def, Ideal.negf_def, Ideal.hostUnary_sqrt_def, Ideal.maximumf_def, Ideal.subf_def, Ideal.addf_def,
    Ideal.mulf_def, Ideal.ofBits_def, Ideal.ofBits_zero_f32, zero_add]
  rfl

/-- The noisy logits: the division by the temperature 1 changes nothing. -/
theorem noisy_stage (b : Fin 4) (s : Fin 8192) (k : Fin 1024) :
    val_main_v23 (F := Ideal) x0 x1 x2 (ix3 b s k) = noisy (rowOf x0 b s) (rowOf x2 b s) (rowsOf x1) k := by
  simp only [val_main_v23_apply, val_main_v22_apply, val_main_cst_3_apply, val_main_v21_apply, val_main_v20_apply,
    val_main_v19_apply, val_main_v18_apply, val_main_v17_apply, logits_stage,
    Ideal.hostDivf_def, Ideal.hostNegf_def, Ideal.negf_def, Ideal.hostUnary_log_def, Ideal.addf_def, Ideal.ofBits_def,
    ofBits_one, div_one_eq]
  rfl

/-- The row's maximum: the host's fold of the maximum over the last axis from -∞, then the maximum with -∞. -/
theorem max_stage (b : Fin 4) (s : Fin 8192) :
    val_main_v26 (F := Ideal) x0 x1 x2 (ix2 b s) = rowMax (noisy (rowOf x0 b s) (rowOf x2 b s) (rowsOf x1)) := by
  have h : S4x8192x1024.Reduces [2] S4x8192 := by decide
  rw [val_main_v26_apply, val_main_v25_apply, val_main_cst_5_apply]
  unfold val_main_v24
  rw [Host.reduce_eq_fold_single FloatOps.maximumf _ _ reducesTo_S4x8192x1024_S4x8192_d2 h h_S_, val_main_cst_4_apply]
  have hf : (val_main_v23 (F := Ideal) x0 x1 x2 ∘ h.lift (ix2 b s))
      = fun k : Fin 1024 => noisy (rowOf x0 b s) (rowOf x2 b s) (rowsOf x1) k := funext fun k => by
    have e : h.lift (ix2 b s) k = ix3 b s (⟨k.val, k.isLt⟩ : Fin 1024) :=
      funext fun a => Fin.ext (by match a with | ⟨0, _⟩ => rfl | ⟨1, _⟩ => rfl | ⟨2, _⟩ => rfl)
    show val_main_v23 (F := Ideal) x0 x1 x2 (h.lift (ix2 b s) k) = _
    rw [e, noisy_stage]
    rfl
  unfold rowMax
  exact congrArg (fun f => max (Ideal.ofBits .f32 0xFF800000#32)
    (Finset.fold max (Ideal.ofBits .f32 0xFF800000#32) f (Finset.univ : Finset (Fin 1024)))) hf

/-- The shifted exponentials. -/
theorem exp_stage (b : Fin 4) (s : Fin 8192) (k : Fin 1024) :
    val_main_v30 (F := Ideal) x0 x1 x2 (ix3 b s k)
      = Ideal.exp (noisy (rowOf x0 b s) (rowOf x2 b s) (rowsOf x1) k - rowMax (noisy (rowOf x0 b s) (rowOf x2 b s) (rowsOf x1))) := by
  simp only [val_main_v30_apply, val_main_v29_apply, val_main_v28_apply, val_main_v27_apply, idx_row_max, max_stage,
    noisy_stage, Ideal.hostUnary_exp_def, Ideal.subf_def]

/-- The softmax weights. -/
theorem weight_stage (b : Fin 4) (s : Fin 8192) (k : Fin 1024) :
    val_main_v34 (F := Ideal) x0 x1 x2 (ix3 b s k)
      = softW (noisy (rowOf x0 b s) (rowOf x2 b s) (rowsOf x1)) (rowMax (noisy (rowOf x0 b s) (rowOf x2 b s) (rowsOf x1))) k := by
  simp only [val_main_v34_apply, val_main_v33_apply, val_main_v32_apply, idx_row_sum, val_main_v31_apply,
    val_main_cst_6_apply, idx_sum_exp, exp_stage, Ideal.hostDivf_def, Ideal.ofBits_def, Ideal.ofBits_zero_f32, zero_add]
  rfl

/-- The quantised rows: the weights times the codebook. -/
theorem quant_stage (b : Fin 4) (s : Fin 8192) (d : Fin 1024) :
    val_main_v35 (F := Ideal) x0 x1 x2 (ix3 b s d) = quant (rowOf x0 b s) (rowOf x2 b s) (rowsOf x1) d := by
  simp only [val_main_v35_apply, idx_mix_l, idx_mix_r, weight_stage]
  rfl

/-! ## The two results as whole arrays -/

/-- The reference's logits are the specification's. -/
theorem logits_eq : val_main_v16 (F := Ideal) x0 x1 = logitsOf x0 x1 := by
  funext i
  obtain ⟨b, s, k, rfl⟩ : ∃ (b : Fin 4) (s : Fin 8192) (k : Fin 1024), i = ix3 b s k := ⟨i 0, i 1, i 2, eq_ix3 i⟩
  exact logits_stage x0 x1 b s k

/-- The reference's quantised array is the specification's. -/
theorem quant_eq : val_main_v35 (F := Ideal) x0 x1 x2 = quantOf x0 x1 x2 := by
  funext i
  obtain ⟨b, s, d, rfl⟩ : ∃ (b : Fin 4) (s : Fin 8192) (d : Fin 1024), i = ix3 b s d := ⟨i 0, i 1, i 2, eq_ix3 i⟩
  exact quant_stage x0 x2 x1 b s d

end Cert.ReferenceIdeal.RefRows

end
-- ==== Proof.FlatSpec.lean ====
/-
  The same two result arrays, seen through the kernel's flattening of (batch, position) into one axis of 32768 rows.

  Row `n` of the flat [32768, 1024] view of a [4, 8192, 1024] array is its row (n / 8192, n % 8192), because the
  flattening keeps the row-major order.  The kernel works on the flat view and un-flattens its two results at the end;
  since every row is treated by itself, the flat results at row `b * 8192 + s` are the specification's at (b, s).
-/
import proofs.«122654_j77988016161041_1_alg».proof.Proof.RowSpec

noncomputable section

namespace Cert.RowSpec

open Idealize.ShloMosaic Idealize.ShloMosaic.ValueIdx

/-- Row `n` of the flat view. -/
def flatRow (a : (⟨3, ![4, 8192, 1024]⟩ : Shape).Idx → EReal) (n : Fin 32768) : Fin 1024 → EReal :=
  rowOf a ⟨n.val / 8192, by have := n.isLt; omega⟩ ⟨n.val % 8192, Nat.mod_lt _ (by decide)⟩

/-- The flat logits: entry (n, k) is the logit of code `k` for flat row `n`. -/
def logitsFlat (e : (⟨3, ![4, 8192, 1024]⟩ : Shape).Idx → EReal) (cb : (⟨2, ![1024, 1024]⟩ : Shape).Idx → EReal) :
    (⟨2, ![32768, 1024]⟩ : Shape).Idx → EReal :=
  fun i => logit (flatRow e (i 0)) (rowsOf cb) (i 1)

/-- The flat quantised array: entry (n, d) is coordinate `d` of the quantised flat row `n`. -/
def quantFlat (e : (⟨3, ![4, 8192, 1024]⟩ : Shape).Idx → EReal) (cb : (⟨2, ![1024, 1024]⟩ : Shape).Idx → EReal)
    (u : (⟨3, ![4, 8192, 1024]⟩ : Shape).Idx → EReal) : (⟨2, ![32768, 1024]⟩ : Shape).Idx → EReal :=
  fun i => quant (flatRow e (i 0)) (flatRow u (i 0)) (rowsOf cb) (i 1)

/-- Flat row `b * 8192 + s` is row (b, s). -/
theorem flatRow_eq (a : (⟨3, ![4, 8192, 1024]⟩ : Shape).Idx → EReal) (b : Fin 4) (s : Fin 8192) (n : Fin 32768)
    (h : n.val = b.val * 8192 + s.val) : flatRow a n = rowOf a b s := by
  have hb : (⟨n.val / 8192, by have := n.isLt; omega⟩ : Fin 4) = b :=
    Fin.ext (by have := s.isLt; show n.val / 8192 = b.val; omega)
  have hs : (⟨n.val % 8192, Nat.mod_lt _ (by decide)⟩ : Fin 8192) = s :=
    Fin.ext (by have := s.isLt; show n.val % 8192 = s.val; omega)
  unfold flatRow
  rw [hb, hs]

/-- The flat logits at row `b * 8192 + s` are the logits at (b, s). -/
theorem logitsFlat_apply (e : (⟨3, ![4, 8192, 1024]⟩ : Shape).Idx → EReal) (cb : (⟨2, ![1024, 1024]⟩ : Shape).Idx → EReal)
    (b : Fin 4) (s : Fin 8192) (k : Fin 1024) (n : Fin 32768) (h : n.val = b.val * 8192 + s.val) :
    logitsFlat e cb (ix2 n k) = logitsOf e cb (ix3 b s k) := by
  show logit (flatRow e n) (rowsOf cb) k = logit (rowOf e b s) (rowsOf cb) k
  rw [flatRow_eq e b s n h]

/-- The flat quantised array at row `b * 8192 + s` is the quantised array at (b, s). -/
theorem quantFlat_apply (e : (⟨3, ![4, 8192, 1024]⟩ : Shape).Idx → EReal) (cb : (⟨2, ![1024, 1024]⟩ : Shape).Idx → EReal)
    (u : (⟨3, ![4, 8192, 1024]⟩ : Shape).Idx → EReal)
    (b : Fin 4) (s : Fin 8192) (d : Fin 1024) (n : Fin 32768) (h : n.val = b.val * 8192 + s.val) :
    quantFlat e cb u (ix2 n d) = quantOf e cb u (ix3 b s d) := by
  show quant (flatRow e n) (flatRow u n) (rowsOf cb) d = quant (rowOf e b s) (rowOf u b s) (rowsOf cb) d
  rw [flatRow_eq e b s n h, flatRow_eq u b s n h]

end Cert.RowSpec

end
-- ==== Proof.HostPrefix.lean ====
/-
  What the kernel's five operand arrays hold when the region is entered, as functions of the three arguments.

  Before the region the host flattens the embeddings and the noise to [32768, 1024], narrows the codebook and its
  transpose to bf16 (the identity on exact reals), and sums the squares of each codebook row into a [1, 1024] row.
  Read at an index: flat row `n` is row (n / 8192, n % 8192); the transposed codebook at (d, k) is the codebook at
  (k, d); entry `k` of the row of squared lengths is |codebook row k|².
-/
import proofs.«122654_j77988016161041_1_alg».proof.Proof.Gen.KernelIdeal.Frame
import proofs.«122654_j77988016161041_1_alg».proof.Proof.FlatSpec
import Idealize.ShloMosaic.Lib.StableHlo.Run
import Idealize.ShloMosaic.Lib.ValueLayout
import Idealize.ShloMosaic.PureOps.Ideal.Laws

noncomputable section

open scoped BigOperators

namespace Cert.KernelIdeal.HostPrefix

open Cert.KernelIdeal Cert.KernelIdeal.Gen
open Idealize.ShloMosaic Idealize.ShloMosaic.TcCoe Idealize.SL.Sem Idealize.ShloMosaic.StableHlo
open Idealize.ShloMosaic.ValueIdx Cert.RowSpec

variable (m : (ℓ : Loc nD τ sig) → Buf (Elt Ideal) ℓ) (c : Dev nD)

/-! ## The operand arrays as terms of the arguments -/

theorem V_flat_embeddings : (V m c main_v0 : S32768x1024.Idx → EReal)
    = shapeCast S32768x1024 (m ((c : Thread nD τ).loc main_arg0)) shapeCasts_S4x8192x1024_S32768x1024 := by
  show StableHlo.after hostOps0 (fun b => m (c, b)) (Proc.devRef .tc main_v0) = _
  after_results
  rfl

theorem V_flat_noise : (V m c main_v1 : S32768x1024.Idx → EReal)
    = shapeCast S32768x1024 (m ((c : Thread nD τ).loc main_arg2)) shapeCasts_S4x8192x1024_S32768x1024 := by
  show StableHlo.after hostOps0 (fun b => m (c, b)) (Proc.devRef .tc main_v1) = _
  after_results
  rfl

theorem V_codebook : (V m c main_v2 : S1024x1024.Idx → EReal)
    = truncf (F := Ideal) .bf16 (m ((c : Thread nD τ).loc main_arg1)) bitsLt_bf16_f32 := by
  show StableHlo.after hostOps0 (fun b => m (c, b)) (Proc.devRef .tc main_v2) = _
  after_results

theorem V_codebook_transposed : (V m c main_v4 : S1024x1024.Idx → EReal)
    = truncf (F := Ideal) .bf16 (transpose S1024x1024 [1, 0] (m ((c : Thread nD τ).loc main_arg1)) transposes_S1024x1024_S1024x1024_1_0)
        bitsLt_bf16_f32 := by
  show StableHlo.after hostOps0 (fun b => m (c, b)) (Proc.devRef .tc main_v4) = _
  after_results

theorem V_codebook_sqLens : (V m c main_v7 : S1x1024.Idx → EReal)
    = shapeCast S1x1024 (Host.reduceAdd (F := Ideal) (mulf (m ((c : Thread nD τ).loc main_arg1)) (m ((c : Thread nD τ).loc main_arg1)))
        (constant (F := Ideal) S_ .f32 0x00000000#32) reducesTo_S1024x1024_S1024_d1 h_S_) shapeCasts_S1024_S1x1024 := by
  show StableHlo.after hostOps0 (fun b => m (c, b)) (Proc.devRef .tc main_v7) = _
  after_results
  rfl

/-! ## The same, read at an index -/

/-- The flattening of a [4, 8192, 1024] array at (n, d) is the array at (n / 8192, n % 8192, d). -/
theorem flatten_apply (a : S4x8192x1024.Idx → EReal) (h : S4x8192x1024.ShapeCasts S32768x1024) (n : Fin 32768) (d : Fin 1024) :
    shapeCast S32768x1024 a h (ix2 n d) = flatRow a n d := by
  refine shapeCast_apply a h (ix2 n d) _ ?_
  rw [Shape.rowMajor_val_three, Shape.rowMajor_val_two]
  show (n.val / 8192 * 8192 + n.val % 8192) * 1024 + d.val = n.val * 1024 + d.val
  omega

/-- The flat embeddings at (n, d). -/
theorem embeddings_apply (n : Fin 32768) (d : Fin 1024) :
    V m c main_v0 (ix2 n d) = flatRow (m ((c : Thread nD τ).loc main_arg0)) n d := by
  rw [V_flat_embeddings]
  exact flatten_apply _ _ n d

/-- The flat noise at (n, d). -/
theorem noise_apply (n : Fin 32768) (d : Fin 1024) :
    V m c main_v1 (ix2 n d) = flatRow (m ((c : Thread nD τ).loc main_arg2)) n d := by
  rw [V_flat_noise]
  exact flatten_apply _ _ n d

/-- The narrowed codebook at (k, d) is the codebook there. -/
theorem codebook_apply (k d : Fin 1024) :
    V m c main_v2 (ix2 k d) = rowsOf (m ((c : Thread nD τ).loc main_arg1)) k d := by
  rw [V_codebook]
  rfl

/-- The narrowed transposed codebook at (d, k) is the codebook at (k, d). -/
theorem codebook_transposed_apply (d k : Fin 1024) :
    V m c main_v4 (ix2 d k) = rowsOf (m ((c : Thread nD τ).loc main_arg1)) k d := by
  rw [V_codebook_transposed]
  exact transpose_ix2_apply (m ((c : Thread nD τ).loc main_arg1)) transposes_S1024x1024_S1024x1024_1_0 d k

/-- Entry `k` of the row of squared lengths is the squared length of the codebook's row `k`. -/
theorem codebook_sqLens_apply (z : Fin 1) (k : Fin 1024) :
    V m c main_v7 (ix2 z k) = sqLen (rowsOf (m ((c : Thread nD τ).loc main_arg1)) k) := by
  have h : S1024x1024.Reduces [1] S1024 := by decide
  rw [V_codebook_sqLens, shapeCast_a_1a_apply]
  simp only [Host.reduceAdd, Ideal.hostReduceAdd_def]
  rw [Ideal.hostReduceAdd_single reducesTo_S1024x1024_S1024_d1 h]
  show Ideal.ofBits .f32 0x00000000#32 + _ = _
  rw [Ideal.ofBits_zero_f32, zero_add]
  unfold sqLen
  refine Finset.sum_congr rfl fun d _ => ?_
  have e : h.lift (ix1 k) d = ix2 k (⟨d.val, d.isLt⟩ : Fin 1024) :=
    funext fun a => Fin.ext (by match a with | ⟨0, _⟩ => rfl | ⟨1, _⟩ => rfl)
  rw [e]
  rfl

end Cert.KernelIdeal.HostPrefix

end
-- ==== Proof.KernelOps.lean ====
/-
  The kernel body's operations that are not pointwise, read at an index (p, q) of a [512, 1024] block.

  A block holds 512 rows; the body sums or folds along each row (the squared length, the running maximum, the
  normalising sum of the softmax), keeps the result as a [512, 1] column, spreads a column or a [1, 1024] row back
  over the block, and multiplies by a [1024, 1024] matrix on the matrix unit.  At the exact reals each of these is
  a finite sum or fold over the row's 1024 coordinates, and a format change is the identity.
-/
import proofs.«122654_j77988016161041_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KOps

open Cert.KernelIdeal Cert.KernelIdeal.Gen
open Idealize.ShloMosaic Idealize.ShloMosaic.ValueIdx

/-- The matrix unit's dimension numbers in the body: rows times columns, one contracted axis of 1024. -/
abbrev D := dot_S512x1024_S1024x1024_S512x1024_1_0_0_1_n_n

/-! ## Pointwise operations the index library does not list -/

theorem sqrt_apply {s : Shape} {φ : FTy} (a : FVec Ideal s φ) (i : s.Idx) : sqrt a i = Ideal.sqrt (a i) := rfl
theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl
/-- A scalar constant denotes what its word denotes. -/
theorem scalar_ofBits (φ : FTy) (b : BitVec φ.bits) : Scalar.ofBits (F := Ideal) φ b = Ideal.ofBits φ b := rfl

/-! ## Sums and folds along a row -/

/-- Row `p` with the coordinate `k` put back is (p, k). -/
theorem lift_row (h : S512x1024.Reduces [1] S512) (p : Fin 512) (k : Fin 1024) : h.lift (ix1 p) k = ix2 p k :=
  funext fun a => Fin.ext (by match a with | ⟨0, _⟩ => rfl | ⟨1, _⟩ => rfl)

/-- A sum along the rows of a block, at row `p`: the sum of the row's 1024 entries. -/
theorem rowSum_apply (y : FVec Ideal S512x1024 .f32) (h : S512x1024.Reduces [1] S512) (hφ : FKind.Formats .f32)
    (hacc : (0x00000000#32 : BitVec 32) = 0x00000000#32) (p : Fin 512) :
    multiReduction .add [1] S512 y 0x00000000#32 h hφ hacc (ix1 p) = ∑ k : Fin 1024, y (ix2 p k) :=
  (Ideal.multiReduction_add_single y _ h hφ hacc (ix1 p)).trans
    (Finset.sum_congr rfl fun k _ => congrArg y (lift_row h p k))

/-- A maximum along the rows of a block, at row `p`: the fold of `max` over the row's entries from the word of -∞. -/
theorem rowFoldMax_apply (y : FVec Ideal S512x1024 .f32) (h : S512x1024.Reduces [1] S512) (hφ : FKind.Formats .f32)
    (hacc : (0xFF800000#32 : BitVec 32) = 0xFF800000#32) (p : Fin 512) :
    multiReduction .maximumf [1] S512 y 0xFF800000#32 h hφ hacc (ix1 p)
      = (Finset.univ : Finset (Fin 1024)).fold max (Ideal.ofBits .f32 0xFF800000#32) (fun k => y (ix2 p k)) := by
  refine (Ideal.multiReduction_maximumf_single y _ h hφ hacc (ix1 p)).trans ?_
  have hf : (y ∘ h.lift (ix1 p)) = fun k : Fin 1024 => y (ix2 p k) := funext fun k => congrArg y (lift_row h p k)
  exact congrArg (fun f => Finset.fold max (Ideal.ofBits .f32 0xFF800000#32) f (Finset.univ : Finset (Fin 1024))) hf

/-! ## Columns and rows spread over the block -/

/-- A vector of 512 entries kept as a [512, 1] column reads, at (p, 0), entry `p`. -/
theorem column_apply {α : Type} (v : S512.Idx → α) (hc : S512.ShapeCasts S512x1) (p : Fin 512) (z : Fin 1) :
    shapeCast S512x1 v hc (ix2 p z) = v (ix1 p) :=
  shapeCast_apply v hc _ _ (by
    rw [Shape.rowMajor_val_two, Shape.rowMajor_val_one]
    show p.val = p.val * 1 + z.val
    omega)

/-- A [512, 1] column spread over the block reads, at (p, q), the column's entry `p`. -/
theorem spreadColumn_apply {α : Type} (w : S512x1.Idx → α) (hb : S512x1.Broadcasts S512x1024) (p : Fin 512) (q : Fin 1024) :
    broadcastTo S512x1024 w hb (ix2 p q) = w (ix2 p (0 : Fin 1)) := by
  refine broadcastTo_apply w hb (ix2 p q) (ix2 p (0 : Fin 1)) fun a => ?_
  match a with
  | ⟨0, _⟩ => show p.val = if (512 : Nat) = 1 then 0 else p.val; rw [if_neg (by decide)]
  | ⟨1, _⟩ => show 0 = if (1 : Nat) = 1 then 0 else q.val; rw [if_pos rfl]

/-- A [1, 1024] row spread over the block reads, at (p, q), the row's entry `q`. -/
theorem spreadRow_apply {α : Type} (w : S1x1024.Idx → α) (hb : S1x1024.Broadcasts S512x1024) (p : Fin 512) (q : Fin 1024) :
    broadcastTo S512x1024 w hb (ix2 p q) = w (ix2 (0 : Fin 1) q) :=
  broadcastTo_1b_ab_apply w hb p q

/-! ## The matrix product -/

theorem lhs_row (i : S512x1024.Idx) (c : D.contr.Idx) : (D.lhsIdx i c 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl

theorem rhs_col (i : S512x1024.Idx) (c : D.contr.Idx) : (D.rhsIdx i c 1).val = (i 1).val := by
  unfold DotDims.rhsIdx
  rw [dif_neg (show ¬(1 : Fin S1024x1024.rank) ∈ D.rhsBatch by decide),
    dif_pos (show (1 : Fin S1024x1024.rank) ∈ D.rhsNonContracting by decide)]
  rfl

/-- The product of a [512, 1024] block with a [1024, 1024] matrix into a zero accumulator, at (p, q): the sum over
    `k` of the block's (p, k) times the matrix's (k, q). -/
theorem matmul_apply (a : FVec Ideal S512x1024 .bf16) (b : FVec Ideal S1024x1024 .bf16) (p : Fin 512) (q : Fin 1024) :
    matmul D none a b (constant S512x1024 .f32 0x00000000#32) (ix2 p q) = ∑ k : Fin 1024, a (ix2 p k) * b (ix2 k q) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun c => Fin.ext (by
    match c with
    | ⟨0, _⟩ => exact lhs_row _ _
    | ⟨1, _⟩ => exact (D.lhsIdx_val_of_single rfl _ _).trans hk)
  have er : D.rhsIdx (ix2 p q) ((contrEquiv1 D 1024 rfl rfl).symm k) = ix2 k q := funext fun c => Fin.ext (by
    match c with
    | ⟨0, _⟩ => exact (D.rhsIdx_val_of_single rfl _ _).trans hk
    | ⟨1, _⟩ => exact rhs_col _ _)
  rw [el, er]

end Cert.KernelIdeal.KOps

end
-- ==== Proof.KernelRows.lean ====
/-
  The kernel body's stored values, read at an index of a block, as the row-level functions of the specification.

  The body computes, for each of the 512 rows of its block, the logits against the whole codebook (from the row of
  the embeddings block, the transposed codebook and the codebook's squared lengths, all three loaded), the noisy
  logits (adding the Gumbel noise of the row of the noise block; the product with the temperature 1 changes nothing),
  their maximum, and the softmax weights times the codebook.  The printed spellings `0 - a` are negations.
-/
import proofs.«122654_j77988016161041_1_alg».proof.Proof.KernelOps
import proofs.«122654_j77988016161041_1_alg».proof.Proof.RowSpec

noncomputable section

open scoped BigOperators

namespace Cert.KernelIdeal.KRows

open Cert.KernelIdeal Cert.KernelIdeal.Gen Cert.KernelIdeal.KOps
open Idealize.ShloMosaic Idealize.ShloMosaic.ValueIdx Cert.RowSpec

/-- The logits block at (p, q): minus the clamped distance, from row `p` of the embeddings block, entry `q` of the
    loaded squared lengths and column `q` of the loaded transposed codebook. -/
theorem logits_payload (v0 : Vec Ideal S512x1024 .f32) (v6 : Vec Ideal S1024x1024 .bf16) (v8 : Vec Ideal S1x1024 .f32)
    (p : Fin 512) (q : Fin 1024) :
    k0_pay3 (F := Ideal) v0 v6 v8 (ix2 p q)
      = negDist (sqLen fun d => v0 (ix2 p d)) (v8 (ix2 (0 : Fin 1) q)) (dotRow (fun d => v0 (ix2 p d)) (fun d => v6 (ix2 d q))) := by
  unfold k0_pay3
  rw [shapeCast_self v0 shapeCasts_S512x1024_S512x1024, shapeCast_self v6 shapeCasts_S1024x1024_S1024x1024,
    shapeCast_self v8 shapeCasts_S1x1024_S1x1024]
  simp only [subf_apply, addf_apply, mulf_apply, maximumf_apply, broadcast_apply, sqrt_apply, truncf_apply,
    spreadColumn_apply, column_apply, spreadRow_apply, KOps.matmul_apply,
    Ideal.ofBits_def, Ideal.ofBits_zero_f32, zero_sub_eq]
  rw [rowSum_apply]
  simp only [mulf_apply]
  rfl

/-- The noisy logits block at (p, q): the logit plus the Gumbel noise of the noise block's entry. -/
theorem noisy_payload (v0 v2 : Vec Ideal S512x1024 .f32) (v6 : Vec Ideal S1024x1024 .bf16) (v8 : Vec Ideal S1x1024 .f32)
    (p : Fin 512) (q : Fin 1024) :
    k0_pay4 (F := Ideal) v0 v2 v6 v8 (ix2 p q) = k0_pay3 (F := Ideal) v0 v6 v8 (ix2 p q) + gumbel (v2 (ix2 p q)) := by
  unfold k0_pay4
  rw [shapeCast_self v2 shapeCasts_S512x1024_S512x1024]
  simp only [subf_apply, addf_apply, mulf_apply, broadcast_apply, log_apply,
    Ideal.ofBits_def, Ideal.ofBits_zero_f32, zero_sub_eq, ofBits_one, mul_one]
  rfl

/-- The column of row maxima at (p, 0): the maximum of row `p` of the noisy logits. -/
theorem max_payload (v0 v2 : Vec Ideal S512x1024 .f32) (v6 : Vec Ideal S1024x1024 .bf16) (v8 : Vec Ideal S1x1024 .f32)
    (p : Fin 512) (z : Fin 1) :
    k0_pay5 (F := Ideal) v0 v2 v6 v8 (ix2 p z) = rowMax fun k => k0_pay4 (F := Ideal) v0 v2 v6 v8 (ix2 p k) := by
  unfold k0_pay5
  rw [column_apply]
  simp only [maximumf_apply, broadcast_apply, Ideal.ofBits_def]
  rw [rowFoldMax_apply]
  rfl

/-- The quantised block at (p, q), from the noisy logits `v34`, the column `v38` they are shifted by and the loaded
    codebook `v5`: the softmax weights of row `p` times column `q` of the codebook. -/
theorem mix_payload (v5 : FVec Ideal S1024x1024 .bf16) (v34 : FVec Ideal S512x1024 .f32) (v38 : FVec Ideal S512x1 .f32)
    (p : Fin 512) (q : Fin 1024) :
    k0_pay1 (F := Ideal) v5 v34 v38 (ix2 p q)
      = mix (softW (fun k => v34 (ix2 p k)) (v38 (ix2 p (0 : Fin 1)))) (fun k d => v5 (ix2 k d)) q := by
  unfold k0_pay1
  rw [KOps.matmul_apply]
  unfold mix
  refine Finset.sum_congr rfl fun k _ => ?_
  refine congrArg (· * v5 (ix2 k q)) ?_
  simp only [truncf_apply, divf_apply, exp_apply, subf_apply, spreadColumn_apply, column_apply]
  rw [rowSum_apply]
  simp only [exp_apply, subf_apply, spreadColumn_apply]
  rfl

/-- The loaded codebook passes through a shape cast to its own shape. -/
theorem codebook_payload (v4 : Vec Ideal S1024x1024 .bf16) : k0_pay2 (F := Ideal) v4 = v4 := by
  unfold k0_pay2
  exact shapeCast_self v4 shapeCasts_S1024x1024_S1024x1024

end Cert.KernelIdeal.KRows

end
-- ==== Proof.Blocks.lean ====
/-
  From the blocks to the two flat result arrays.

  Grid point `t` (of 64) stages rows 512 t … 512 t + 511 of the flat embeddings and of the flat noise, and the whole
  codebook, transposed codebook and row of squared lengths; it writes back rows 512 t … 512 t + 511 of the two flat
  results.  Row `p` of what it writes back depends only on row `512 t + p` of the flat inputs, so each written block is
  the block of ONE whole-array function — the flat logits and the flat quantised array of the specification — and, the
  64 blocks tiling the 32768 rows, each flat result array ends holding that function.
-/
import proofs.«122654_j77988016161041_1_alg».proof.Proof.Gen.KernelIdeal.Frame
import proofs.«122654_j77988016161041_1_alg».proof.Proof.HostPrefix
import proofs.«122654_j77988016161041_1_alg».proof.Proof.KernelRows
import Idealize.ShloMosaic.Lib.Pipeline.Value

noncomputable section

open scoped BigOperators

namespace Cert.KernelIdeal.Blocks

open Cert.KernelIdeal Cert.KernelIdeal.Gen Cert.KernelIdeal.KOps Cert.KernelIdeal.KRows Cert.KernelIdeal.HostPrefix
open Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-- The printed index maps, decided once over the 64 grid points: the row blocks move with the point, the codebook
    operands stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 64 := lt_of_lt_of_eq t.isLt N_0

/-- The flat row that row `p` of point `t`'s block is. -/
def rowAt (t : Fin cfg0.N) (p : Fin 512) : Fin 32768 := ⟨512 * t.val + p.val, by have := point_lt t; have := p.isLt; omega⟩

/-! ## The input blocks read at an index -/

/-- Row `p` of the embeddings block at point `t` is flat row `512 t + p` of the embeddings. -/
theorem embeddings_block (t : Fin cfg0.N) (p : Fin 512) :
    (fun d : Fin 1024 => (iblk m c 0 t : Vec Ideal S512x1024 .f32) (ix2 p d))
      = flatRow (m ((c : Thread nD τ).loc main_arg0)) (rowAt t p) := by
  funext d
  show V m c main_v0 (((cfg0.win 0).blk t).view.emb (ix2 p d)) = _
  have h0 : ((cfg0.win 0).blk t).view.emb (ix2 p d) = ix2 (rowAt t p) d := by
    funext a; apply Fin.ext
    match a with
    | ⟨0, _⟩ => show win0_0.index t (0 : Fin 2) * 512 + 1 * p.val = 512 * t.val + p.val; rw [(idx_facts t).1]; omega
    | ⟨1, _⟩ => show win0_0.index t (1 : Fin 2) * 1024 + 1 * d.val = d.val; rw [(idx_facts t).2.1]; omega
  rw [h0]
  exact embeddings_apply m c (rowAt t p) d

/-- Row `p` of the noise block at point `t` is flat row `512 t + p` of the noise. -/
theorem noise_block (t : Fin cfg0.N) (p : Fin 512) :
    (fun d : Fin 1024 => (iblk m c 1 t : Vec Ideal S512x1024 .f32) (ix2 p d))
      = flatRow (m ((c : Thread nD τ).loc main_arg2)) (rowAt t p) := by
  funext d
  show V m c main_v1 (((cfg0.win 1).blk t).view.emb (ix2 p d)) = _
  have h0 : ((cfg0.win 1).blk t).view.emb (ix2 p d) = ix2 (rowAt t p) d := by
    funext a; apply Fin.ext
    match a with
    | ⟨0, _⟩ => show win0_1.index t (0 : Fin 2) * 512 + 1 * p.val = 512 * t.val + p.val; rw [(idx_facts t).2.2.1]; omega
    | ⟨1, _⟩ => show win0_1.index t (1 : Fin 2) * 1024 + 1 * d.val = d.val; rw [(idx_facts t).2.2.2.1]; omega
  rw [h0]
  exact noise_apply m c (rowAt t p) d

/-- The codebook block is the whole codebook, at every point. -/
theorem codebook_block (t : Fin cfg0.N) :
    (fun k d : Fin 1024 => (iblk m c 2 t : Vec Ideal S1024x1024 .bf16) (ix2 k d))
      = rowsOf (m ((c : Thread nD τ).loc main_arg1)) := by
  funext k d
  show V m c main_v2 (((cfg0.win 2).blk t).view.emb (ix2 k d)) = _
  have h0 : ((cfg0.win 2).blk t).view.emb (ix2 k d) = ix2 k d := by
    funext a; apply Fin.ext
    match a with
    | ⟨0, _⟩ => show win0_2.index t (0 : Fin 2) * 1024 + 1 * k.val = k.val; rw [(idx_facts t).2.2.2.2.1]; omega
    | ⟨1, _⟩ => show win0_2.index t (1 : Fin 2) * 1024 + 1 * d.val = d.val; rw [(idx_facts t).2.2.2.2.2.1]; omega
  rw [h0]
  exact codebook_apply m c k d

/-- Column `k` of the transposed-codebook block is row `k` of the codebook, at every point. -/
theorem codebook_transposed_block (t : Fin cfg0.N) (k : Fin 1024) :
    (fun d : Fin 1024 => (iblk m c 3 t : Vec Ideal S1024x1024 .bf16) (ix2 d k))
      = rowsOf (m ((c : Thread nD τ).loc main_arg1)) k := by
  funext d
  show V m c main_v4 (((cfg0.win 3).blk t).view.emb (ix2 d k)) = _
  have h0 : ((cfg0.win 3).blk t).view.emb (ix2 d k) = ix2 d k := by
    funext a; apply Fin.ext
    match a with
    | ⟨0, _⟩ => show win0_3.index t (0 : Fin 2) * 1024 + 1 * d.val = d.val; rw [(idx_facts t).2.2.2.2.2.2.1]; omega
    | ⟨1, _⟩ => show win0_3.index t (1 : Fin 2) * 1024 + 1 * k.val = k.val; rw [(idx_facts t).2.2.2.2.2.2.2.1]; omega
  rw [h0]
  exact codebook_transposed_apply m c d k

/-- Entry `k` of the squared-lengths block is the squared length of the codebook's row `k`, at every point. -/
theorem sqLens_block (t : Fin cfg0.N) (k : Fin 1024) :
    (iblk m c 4 t : Vec Ideal S1x1024 .f32) (ix2 (0 : Fin 1) k) = sqLen (rowsOf (m ((c : Thread nD τ).loc main_arg1)) k) := by
  show V m c main_v7 (((cfg0.win 4).blk t).view.emb (ix2 (0 : Fin 1) k)) = _
  have h0 : ((cfg0.win 4).blk t).view.emb (ix2 (0 : Fin 1) k) = ix2 (0 : Fin 1) k := by
    funext a; apply Fin.ext
    match a with
    | ⟨0, _⟩ => show win0_4.index t (0 : Fin 2) * 1 + 1 * 0 = 0; rw [(idx_facts t).2.2.2.2.2.2.2.2.1]
    | ⟨1, _⟩ => show win0_4.index t (1 : Fin 2) * 1024 + 1 * k.val = k.val; rw [(idx_facts t).2.2.2.2.2.2.2.2.2.1]; omega
  rw [h0]
  exact codebook_sqLens_apply m c 0 k

/-! ## What the body computes from the blocks of point `t`, row by row -/

/-- The logits payload at (p, q) of point `t`: the logit of code `q` for flat row `512 t + p`. -/
theorem logits_at (t : Fin cfg0.N) (p : Fin 512) (q : Fin 1024) :
    k0_pay3 (F := Ideal) (iblk m c 0 t) (iblk m c 3 t) (iblk m c 4 t) (ix2 p q)
      = logit (flatRow (m ((c : Thread nD τ).loc main_arg0)) (rowAt t p)) (rowsOf (m ((c : Thread nD τ).loc main_arg1))) q := by
  refine (logits_payload (iblk m c 0 t) (iblk m c 3 t) (iblk m c 4 t) p q).trans ?_
  rw [embeddings_block m c t p, codebook_transposed_block m c t q, sqLens_block m c t q]
  rfl

/-- The noisy logits payload along row `p` of point `t`. -/
theorem noisy_at (t : Fin cfg0.N) (p : Fin 512) :
    (fun k : Fin 1024 => k0_pay4 (F := Ideal) (iblk m c 0 t) (iblk m c 1 t) (iblk m c 3 t) (iblk m c 4 t) (ix2 p k))
      = noisy (flatRow (m ((c : Thread nD τ).loc main_arg0)) (rowAt t p)) (flatRow (m ((c : Thread nD τ).loc main_arg2)) (rowAt t p))
          (rowsOf (m ((c : Thread nD τ).loc main_arg1))) := by
  funext k
  refine (noisy_payload (iblk m c 0 t) (iblk m c 1 t) (iblk m c 3 t) (iblk m c 4 t) p k).trans ?_
  have hu : (iblk m c 1 t : Vec Ideal S512x1024 .f32) (ix2 p k) = flatRow (m ((c : Thread nD τ).loc main_arg2)) (rowAt t p) k :=
    congrFun (noise_block m c t p) k
  rw [logits_at m c t p k, hu]
  rfl

/-- The quantised payload at (p, q) of point `t`: coordinate `q` of the quantised flat row `512 t + p`. -/
theorem quant_at (t : Fin cfg0.N) (p : Fin 512) (q : Fin 1024) :
    k0_pay1 (F := Ideal) (k0_pay2 (iblk m c 2 t)) (k0_pay4 (iblk m c 0 t) (iblk m c 1 t) (iblk m c 3 t) (iblk m c 4 t))
        (k0_pay5 (iblk m c 0 t) (iblk m c 1 t) (iblk m c 3 t) (iblk m c 4 t)) (ix2 p q)
      = quant (flatRow (m ((c : Thread nD τ).loc main_arg0)) (rowAt t p)) (flatRow (m ((c : Thread nD τ).loc main_arg2)) (rowAt t p))
          (rowsOf (m ((c : Thread nD τ).loc main_arg1))) q := by
  refine (mix_payload (k0_pay2 (iblk m c 2 t)) (k0_pay4 (iblk m c 0 t) (iblk m c 1 t) (iblk m c 3 t) (iblk m c 4 t))
    (k0_pay5 (iblk m c 0 t) (iblk m c 1 t) (iblk m c 3 t) (iblk m c 4 t)) p q).trans ?_
  rw [max_payload (iblk m c 0 t) (iblk m c 1 t) (iblk m c 3 t) (iblk m c 4 t) p 0, noisy_at m c t p,
    codebook_payload (iblk m c 2 t), codebook_block m c t]
  rfl

/-! ## Output window 6: the flat logits -/

/-- Where the element (p, q) of point `t`'s block sits in a flat result array. -/
theorem emb6 (t : Fin cfg0.N) (p : Fin 512) (q : Fin 1024) :
    ((cfg0.win 6).blk t).view.emb (ix2 p q) = ix2 (rowAt t p) q := by
  funext a; apply Fin.ext
  match a with
  | ⟨0, _⟩ => show win0_6.index t (0 : Fin 2) * 512 + 1 * p.val = 512 * t.val + p.val; rw [(idx_facts t).2.2.2.2.2.2.2.2.2.2.2.2.1]; omega
  | ⟨1, _⟩ => show win0_6.index t (1 : Fin 2) * 1024 + 1 * q.val = q.val; rw [(idx_facts t).2.2.2.2.2.2.2.2.2.2.2.2.2]; omega

theorem emb5 (t : Fin cfg0.N) (p : Fin 512) (q : Fin 1024) :
    ((cfg0.win 5).blk t).view.emb (ix2 p q) = ix2 (rowAt t p) q := by
  funext a; apply Fin.ext
  match a with
  | ⟨0, _⟩ => show win0_5.index t (0 : Fin 2) * 512 + 1 * p.val = 512 * t.val + p.val; rw [(idx_facts t).2.2.2.2.2.2.2.2.2.2.1]; omega
  | ⟨1, _⟩ => show win0_5.index t (1 : Fin 2) * 1024 + 1 * q.val = q.val; rw [(idx_facts t).2.2.2.2.2.2.2.2.2.2.2.1]; omega

/-- What point `t` writes back to the logits array is block `t` of the flat logits. -/
theorem flushed6_eq (t : Fin cfg0.N) :
    (dats m 0 c).flushed 6 t = ((cfg0.win 6).blk t).view.read (Elt Ideal)
      (logitsFlat (m ((c : Thread nD τ).loc main_arg0)) (m ((c : Thread nD τ).loc main_arg1))) := by
  show (cfg0.win 6).cut (grid0.coords t) ((dats m 0 c).after 6 t) = _
  rw [after0_6]
  unfold out0_6
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 (n0 := 512) (n1 := 1024) j⟩
  show k0_pay3 (F := Ideal) (iblk m c 0 t) (iblk m c 3 t) (iblk m c 4 t) (ix2 p q)
    = logitsFlat (m ((c : Thread nD τ).loc main_arg0)) (m ((c : Thread nD τ).loc main_arg1)) (((cfg0.win 6).blk t).view.emb (ix2 p q))
  rw [emb6 t p q]
  exact logits_at m c t p q

/-- An index of a flat result array is in point `t`'s block iff its row is among the block's 512 rows. -/
theorem mem_blk6 (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v8_1).slice (win0_6.rect t)).set ↔ _
  rw [View.set_slice_whole, Rect.mem_set_unit]
  exact Iff.rfl

/-- Every row of the flat logits is in the block of the point `row / 512`. -/
theorem cover6 (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  obtain ⟨t, ht⟩ : ∃ t : Fin cfg0.N, t.val = (i 0).val / 512 := ⟨⟨(i 0).val / 512, by rw [show cfg0.N = 64 from N_0]; omega⟩, rfl⟩
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [(idx_facts t).2.2.2.2.2.2.2.2.2.2.2.2.1, ht]; omega
  | ⟨1, _⟩ =>
    show win0_6.index t (1 : Fin 2) * 1024 ≤ (i 1).val ∧ (i 1).val < win0_6.index t (1 : Fin 2) * 1024 + 1024
    rw [(idx_facts t).2.2.2.2.2.2.2.2.2.2.2.2.2]; omega

/-- The logits array after the region: the flat logits. -/
theorem final6 : (dats m 0 c).arrAt 6 cfg0.N
    = logitsFlat (m ((c : Thread nD τ).loc main_arg0)) (m ((c : Thread nD τ).loc main_arg1)) :=
  (dats m 0 c).arrAt_eq_of_cover 6 _ (fun t _ => flushed6_eq m c t) cover6

/-! ## Output window 5: the flat quantised array -/

/-- What point `t` writes back to the quantised array is block `t` of the flat quantised array. -/
theorem flushed5_eq (t : Fin cfg0.N) :
    (dats m 0 c).flushed 5 t = ((cfg0.win 5).blk t).view.read (Elt Ideal)
      (quantFlat (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 (n0 := 512) (n1 := 1024) j⟩
  show k0_pay1 (F := Ideal) (k0_pay2 (iblk m c 2 t)) (k0_pay4 (iblk m c 0 t) (iblk m c 1 t) (iblk m c 3 t) (iblk m c 4 t))
        (k0_pay5 (iblk m c 0 t) (iblk m c 1 t) (iblk m c 3 t) (iblk m c 4 t)) (ix2 p q)
    = quantFlat (m ((c : Thread nD τ).loc main_arg0)) (m ((c : Thread nD τ).loc main_arg1)) (m ((c : Thread nD τ).loc main_arg2))
        (((cfg0.win 5).blk t).view.emb (ix2 p q))
  rw [emb5 t p q]
  exact quant_at m c t p q

theorem mem_blk5 (t : Fin cfg0.N) (i : S32768x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v8_0).slice (win0_5.rect t)).set ↔ _
  rw [View.set_slice_whole, Rect.mem_set_unit]
  exact Iff.rfl

/-- Every row of the flat quantised array is in the block of the point `row / 512`. -/
theorem cover5 (i : S32768x1024.Idx) : ∃ t : Fin cfg0.N, (cfg0.win 5).flush t = true ∧ i ∈ ((cfg0.win 5).blk t).view.set := by
  have hi0 : (i 0).val < 32768 := (i 0).isLt
  have hi1 : (i 1).val < 1024 := (i 1).isLt
  obtain ⟨t, ht⟩ : ∃ t : Fin cfg0.N, t.val = (i 0).val / 512 := ⟨⟨(i 0).val / 512, by rw [show cfg0.N = 64 from N_0]; omega⟩, rfl⟩
  refine ⟨t, flush0_5 t, ?_⟩
  rw [mem_blk5]
  intro a
  match a with
  | ⟨0, _⟩ =>
    show win0_5.index t (0 : Fin 2) * 512 ≤ (i 0).val ∧ (i 0).val < win0_5.index t (0 : Fin 2) * 512 + 512
    rw [(idx_facts t).2.2.2.2.2.2.2.2.2.2.1, ht]; omega
  | ⟨1, _⟩ =>
    show win0_5.index t (1 : Fin 2) * 1024 ≤ (i 1).val ∧ (i 1).val < win0_5.index t (1 : Fin 2) * 1024 + 1024
    rw [(idx_facts t).2.2.2.2.2.2.2.2.2.2.2.1]; omega

/-- The quantised array after the region: the flat quantised array. -/
theorem final5 : (dats m 0 c).arrAt 5 cfg0.N
    = quantFlat (m ((c : Thread nD τ).loc main_arg0)) (m ((c : Thread nD τ).loc main_arg1)) (m ((c : Thread nD τ).loc main_arg2)) :=
  (dats m 0 c).arrAt_eq_of_cover 5 _ (fun t _ => flushed5_eq m c t) cover5

end Cert.KernelIdeal.Blocks

end
-- ==== Proof.KernelRun.lean ====
/-
  The idealised kernel's run, with both results named.

  After the region the host un-flattens the two [32768, 1024] result arrays to [4, 8192, 1024]; entry (b, s, ·) of
  an un-flattened array is flat row `b * 8192 + s`, so the two results are the specification's logits and quantised
  arrays of the three arguments, which end unchanged.
-/
import proofs.«122654_j77988016161041_1_alg».proof.Proof.Blocks
import Idealize.ShloMosaic.Lib.StableHlo.Run

noncomputable section

namespace Cert.KernelIdeal.KernelRun

open Cert.KernelIdeal Cert.KernelIdeal.Gen Cert.KernelIdeal.Blocks
open Idealize.ShloMosaic Idealize.ShloMosaic.TcCoe Idealize.SL.Sem Idealize.ShloMosaic.StableHlo
open Idealize.ShloMosaic.ValueIdx Cert.RowSpec

variable (m : (ℓ : Loc nD τ sig) → Buf (Elt Ideal) ℓ) (ρ : Dev nD → PrngReg)

/-- The un-flattening of a [32768, 1024] array at (b, s, k) is the array at (b * 8192 + s, k). -/
theorem unflatten_apply (a : S32768x1024.Idx → EReal) (h : S32768x1024.ShapeCasts S4x8192x1024)
    (b : Fin 4) (s : Fin 8192) (k : Fin 1024) (n : Fin 32768) (hn : n.val = b.val * 8192 + s.val) :
    shapeCast S4x8192x1024 a h (ix3 b s k) = a (ix2 n k) := by
  refine shapeCast_apply a h (ix3 b s k) (ix2 n k) ?_
  rw [Shape.rowMajor_val_three, Shape.rowMajor_val_two]
  show n.val * 1024 + k.val = (b.val * 8192 + s.val) * 1024 + k.val
  rw [hn]

/-- The flat row of (b, s). -/
def flatIdx (b : Fin 4) (s : Fin 8192) : Fin 32768 := ⟨b.val * 8192 + s.val, by have := b.isLt; have := s.isLt; omega⟩

/-- The logits result: the un-flattened logits array of the region. -/
theorem logits_result (c : Dev nD) :
    (Pipeline.afterTail₀ cfgs (dats m) 0 (V0 m) [hostOps1] c main_v10 : S4x8192x1024.Idx → EReal)
      = logitsOf (m ((c : Thread nD τ).loc main_arg0)) (m ((c : Thread nD τ).loc main_arg1)) := by
  have harr : Pipeline.withArrays (cfgs 0).spec c (V0 m c) (fun w => (dats m 0 c).arrAt w (cfgs 0).N) (Proc.devRef .tc main_v8_1)
      = logitsFlat (m ((c : Thread nD τ).loc main_arg0)) (m ((c : Thread nD τ).loc main_arg1)) :=
    (Pipeline.withArrays_arr spec0 launch0.win.arr_inj c _ _ 6).trans (final6 m c)
  unfold Pipeline.afterTail₀
  show StableHlo.after hostOps1 _ (Proc.devRef .tc main_v10) = _
  after_results
  funext i
  obtain ⟨b, s, k, rfl⟩ : ∃ (b : Fin 4) (s : Fin 8192) (k : Fin 1024), i = ix3 b s k := ⟨i 0, i 1, i 2, eq_ix3 i⟩
  show shapeCast S4x8192x1024 (Pipeline.withArrays (cfgs 0).spec c (V0 m c) (fun w => (dats m 0 c).arrAt w (cfgs 0).N)
    (Proc.devRef .tc main_v8_1)) shapeCasts_S32768x1024_S4x8192x1024 (ix3 b s k) = _
  rw [harr, unflatten_apply _ _ b s k (flatIdx b s) rfl]
  exact logitsFlat_apply _ _ b s k (flatIdx b s) rfl

/-- The quantised result: the un-flattened quantised array of the region. -/
theorem quant_result (c : Dev nD) :
    (Pipeline.afterTail₀ cfgs (dats m) 0 (V0 m) [hostOps1] c main_v9 : S4x8192x1024.Idx → EReal)
      = quantOf (m ((c : Thread nD τ).loc main_arg0)) (m ((c : Thread nD τ).loc main_arg1)) (m ((c : Thread nD τ).loc main_arg2)) := by
  have harr : Pipeline.withArrays (cfgs 0).spec c (V0 m c) (fun w => (dats m 0 c).arrAt w (cfgs 0).N) (Proc.devRef .tc main_v8_0)
      = quantFlat (m ((c : Thread nD τ).loc main_arg0)) (m ((c : Thread nD τ).loc main_arg1)) (m ((c : Thread nD τ).loc main_arg2)) :=
    (Pipeline.withArrays_arr spec0 launch0.win.arr_inj c _ _ 5).trans (final5 m c)
  unfold Pipeline.afterTail₀
  show StableHlo.after hostOps1 _ (Proc.devRef .tc main_v9) = _
  after_results
  funext i
  obtain ⟨b, s, d, rfl⟩ : ∃ (b : Fin 4) (s : Fin 8192) (d : Fin 1024), i = ix3 b s d := ⟨i 0, i 1, i 2, eq_ix3 i⟩
  show shapeCast S4x8192x1024 (Pipeline.withArrays (cfgs 0).spec c (V0 m c) (fun w => (dats m 0 c).arrAt w (cfgs 0).N)
    (Proc.devRef .tc main_v8_0)) shapeCasts_S32768x1024_S4x8192x1024 (ix3 b s d) = _
  rw [harr, unflatten_apply _ _ b s d (flatIdx b s) rfl]
  exact quantFlat_apply _ _ _ b s d (flatIdx b s) rfl

/-- Every weakly fair execution of the idealised kernel terminates with the quantised array and the logits of the
    specification in its two results, and its arguments unchanged. -/
theorem run : θ_run defs (onTc (τ := τ) (main (F := Ideal))) ⟨m, fun _ => 0, ρ⟩ fun r => ∀ c : Dev nD,
      r.2.mem ((c.tc : Thread nD τ).loc main_v9)
        = quantOf (m ((c.tc : Thread nD τ).loc main_arg0)) (m ((c.tc : Thread nD τ).loc main_arg1)) (m ((c.tc : Thread nD τ).loc main_arg2))
      ∧ r.2.mem ((c.tc : Thread nD τ).loc main_v10)
        = logitsOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (quant_result m c),
      ((h c).2 main_v10 (Pipeline.mem_restRefs_of main_v10 (by decide) (by decide))).trans (logits_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/-
  The certificate: the Pallas kernel for soft vector quantisation with Gumbel noise computes, at the exact reals, what
  its plain reference computes.

  The kernel flattens (batch, position) into 32768 rows and treats 512 of them per grid point; for each row it forms
  the logits against the 1024 codes through |x|² + |c|² - 2 x·c, adds the noise, takes the softmax and multiplies by the
  codebook.  The reference does the same on the unflattened arrays.  No row meets another, so both programs' two results
  are one pair of functions of the three arguments (Proof/RowSpec.lean).  The reference's stages are read off its run
  (Proof/RefRows.lean); the kernel's stored blocks are read off its body (Proof/KernelOps.lean, Proof/KernelRows.lean),
  its operands off the host lines before the region (Proof/HostPrefix.lean), its two flat result arrays off the
  tiling by blocks (Proof/Blocks.lean), and the results off the host lines after the region (Proof/KernelRun.lean).
  The idealisation rewrote nothing, so it preserves the kernel trivially; the three frames are the generated ones.
-/
import proofs.«122654_j77988016161041_1_alg».proof.Defs
import proofs.«122654_j77988016161041_1_alg».proof.Proof.Gen.Kernel
import proofs.«122654_j77988016161041_1_alg».proof.Proof.Gen.Kernel.Frame
import proofs.«122654_j77988016161041_1_alg».proof.Proof.Gen.KernelIdeal
import proofs.«122654_j77988016161041_1_alg».proof.Proof.Gen.KernelIdeal.Frame
import proofs.«122654_j77988016161041_1_alg».proof.Proof.Gen.ReferenceIdeal
import proofs.«122654_j77988016161041_1_alg».proof.Proof.Gen.ReferenceIdeal.Run
import proofs.«122654_j77988016161041_1_alg».proof.Proof.Gen.ReferenceIdeal.Read
import proofs.«122654_j77988016161041_1_alg».proof.Proof.Gen.Pre_finite_inputs
import proofs.«122654_j77988016161041_1_alg».proof.Proof.RefRows
import proofs.«122654_j77988016161041_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference runs and keeps its arguments: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's quantised array and logits of arguments that agree. -/
theorem algebraic : Cert.algebraic_KernelIdeal_ReferenceIdeal := by
  intro m ρ m' ρ' _ hagree
  refine ⟨fun c => Cert.RowSpec.quantOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.RowSpec.logitsOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v35_eq, Cert.ReferenceIdeal.RefRows.quant_eq,
      (hagree c).1, (hagree c).2.1, (hagree c).2.2]
  · rw [(h c).2.1, Cert.ReferenceIdeal.Read.val_main_v16_eq, Cert.ReferenceIdeal.RefRows.logits_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
